-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel

variable [Facts]

def fn {F : FTy → Type} [FloatOps F] (main_arg0 : FVec F S4x2048x768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  main_v3
-- ==== Kernel.lean ====
abbrev S4x2048x768 : Shape := ⟨3, ![4, 2048, 768]⟩
abbrev S4x16x2048x768 : Shape := ⟨4, ![4, 16, 2048, 768]⟩
abbrev S1x256x768 : Shape := ⟨3, ![1, 256, 768]⟩
abbrev S1x16x256x768 : Shape := ⟨4, ![1, 16, 256, 768]⟩
abbrev S256x768 : Shape := ⟨2, ![256, 768]⟩
abbrev S1x1x256x768 : Shape := ⟨4, ![1, 1, 256, 768]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x768, .f32⟩
  | .hbm, ⟨1, _⟩ => ⟨S4x16x2048x768, .f32⟩
  | .local _ .vmem, ⟨0, _⟩ => ⟨S1x256x768, .f32⟩
  | .local _ .vmem, ⟨1, _⟩ => ⟨S1x256x768, .f32⟩
  | .local _ .vmem, ⟨2, _⟩ => ⟨S1x16x256x768, .f32⟩
  | .local _ .vmem, ⟨3, _⟩ => ⟨S1x16x256x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  natLt_1_32 : 1 < 32
  inb_S1x16x256x768_S1x1x256x768_0_0_0_0 : ∀ a, (![0, 0, 0, 0] : Fin 4 → Nat) a + S1x1x256x768.size a ≤ S1x16x256x768.size a
  h_S1x1x256x768 : 0 < S1x1x256x768.numel
  shapeCasts_S1x1x256x768_S256x768 : S1x1x256x768.ShapeCasts S256x768
  shapeCasts_S256x768_S1x1x256x768 : S256x768.ShapeCasts S1x1x256x768
  inb_S1x16x256x768_S1x1x256x768_0_1_0_0 : ∀ a, (![0, 1, 0, 0] : Fin 4 → Nat) a + S1x1x256x768.size a ≤ S1x16x256x768.size a
  inb_S1x16x256x768_S1x1x256x768_0_2_0_0 : ∀ a, (![0, 2, 0, 0] : Fin 4 → Nat) a + S1x1x256x768.size a ≤ S1x16x256x768.size a
  inb_S1x16x256x768_S1x1x256x768_0_3_0_0 : ∀ a, (![0, 3, 0, 0] : Fin 4 → Nat) a + S1x1x256x768.size a ≤ S1x16x256x768.size a
  inb_S1x16x256x768_S1x1x256x768_0_4_0_0 : ∀ a, (![0, 4, 0, 0] : Fin 4 → Nat) a + S1x1x256x768.size a ≤ S1x16x256x768.size a
  inb_S1x16x256x768_S1x1x256x768_0_5_0_0 : ∀ a, (![0, 5, 0, 0] : Fin 4 → Nat) a + S1x1x256x768.size a ≤ S1x16x256x768.size a
  inb_S1x16x256x768_S1x1x256x768_0_6_0_0 : ∀ a, (![0, 6, 0, 0] : Fin 4 → Nat) a + S1x1x256x768.size a ≤ S1x16x256x768.size a
  inb_S1x16x256x768_S1x1x256x768_0_7_0_0 : ∀ a, (![0, 7, 0, 0] : Fin 4 → Nat) a + S1x1x256x768.size a ≤ S1x16x256x768.size a
  inb_S1x16x256x768_S1x1x256x768_0_8_0_0 : ∀ a, (![0, 8, 0, 0] : Fin 4 → Nat) a + S1x1x256x768.size a ≤ S1x16x256x768.size a
  inb_S1x16x256x768_S1x1x256x768_0_9_0_0 : ∀ a, (![0, 9, 0, 0] : Fin 4 → Nat) a + S1x1x256x768.size a ≤ S1x16x256x768.size a
  inb_S1x16x256x768_S1x1x256x768_0_10_0_0 : ∀ a, (![0, 10, 0, 0] : Fin 4 → Nat) a + S1x1x256x768.size a ≤ S1x16x256x768.size a
  inb_S1x16x256x768_S1x1x256x768_0_11_0_0 : ∀ a, (![0, 11, 0, 0] : Fin 4 → Nat) a + S1x1x256x768.size a ≤ S1x16x256x768.size a
  inb_S1x16x256x768_S1x1x256x768_0_12_0_0 : ∀ a, (![0, 12, 0, 0] : Fin 4 → Nat) a + S1x1x256x768.size a ≤ S1x16x256x768.size a
  inb_S1x16x256x768_S1x1x256x768_0_13_0_0 : ∀ a, (![0, 13, 0, 0] : Fin 4 → Nat) a + S1x1x256x768.size a ≤ S1x16x256x768.size a
  inb_S1x16x256x768_S1x1x256x768_0_14_0_0 : ∀ a, (![0, 14, 0, 0] : Fin 4 → Nat) a + S1x1x256x768.size a ≤ S1x16x256x768.size a
  inb_S1x16x256x768_S1x1x256x768_0_15_0_0 : ∀ a, (![0, 15, 0, 0] : Fin 4 → Nat) a + S1x1x256x768.size a ≤ S1x16x256x768.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S4x2048x768.size a
  hwx0_0 : ∀ i : grid0.Coords, EltTy.bits .f32 = 32 ∨ (Rect.block (s := S4x2048x768) S1x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x256x768.size a ≤ S4x16x2048x768.size a
  hwx0_1 : ∀ i : grid0.Coords, EltTy.bits .f32 = 32 ∨ (Rect.block (s := S4x16x2048x768) S1x16x256x768.size (cc0_transform_1 i) (hinb0_1 i)).WholeWords (EltTy.packing .f32)

variable [Facts₀]

abbrev win0_0 : Pipeline.Window sig grid0 :=
  Pipeline.Window.ofSpec (Memref.whole main_arg0) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x256x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x2048x768 : Shape := ⟨3, ![4, 2048, 768]⟩
abbrev S_ : Shape := ⟨0, ![]⟩
abbrev S16 : Shape := ⟨1, ![16]⟩
abbrev S4x1x2048x768 : Shape := ⟨4, ![4, 1, 2048, 768]⟩
abbrev S1x16x1x1 : Shape := ⟨4, ![1, 16, 1, 1]⟩
abbrev S4x16x2048x768 : Shape := ⟨4, ![4, 16, 2048, 768]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S4x2048x768, .f32⟩
  | .hbm, ⟨2, _⟩ => ⟨S4x2048x768, .f32⟩
  | .hbm, ⟨3, _⟩ => ⟨S_, .f32⟩
  | .hbm, ⟨4, _⟩ => ⟨S4x2048x768, .f32⟩
  | .hbm, ⟨5, _⟩ => ⟨S4x2048x768, .f32⟩
  | .hbm, ⟨6, _⟩ => ⟨S_, .f32⟩
  | .hbm, ⟨7, _⟩ => ⟨S4x2048x768, .f32⟩
  | .hbm, ⟨8, _⟩ => ⟨S4x2048x768, .f32⟩
  | .hbm, ⟨9, _⟩ => ⟨S_, .f32⟩
  | .hbm, ⟨10, _⟩ => ⟨S4x2048x768, .f32⟩
  | .hbm, ⟨11, _⟩ => ⟨S4x2048x768, .f32⟩
  | .hbm, ⟨12, _⟩ => ⟨S4x2048x768, .i32⟩
  | .hbm, ⟨13, _⟩ => ⟨S16, .i32⟩
  | .hbm, ⟨14, _⟩ => ⟨S4x1x2048x768, .i32⟩
  | .hbm, ⟨15, _⟩ => ⟨S1x16x1x1, .i32⟩
  | .hbm, ⟨16, _⟩ => ⟨S4x16x2048x768, .i32⟩
  | .hbm, ⟨17, _⟩ => ⟨S4x16x2048x768, .i32⟩
  | .hbm, ⟨18, _⟩ => ⟨S4x16x2048x768, .i1⟩
  | .hbm, ⟨19, _⟩ => ⟨S4x16x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]

class Facts₀ : Prop where
  bcast_S_S4x2048x768 : S_.BroadcastsInDim S4x2048x768 (![] : Fin 0 → Fin S4x2048x768.rank)
  bcast_S4x2048x768_S4x1x2048x768_0_2_3 : S4x2048x768.BroadcastsInDim S4x1x2048x768 (![0, 2, 3] : Fin 3 → Fin S4x1x2048x768.rank)
  bcast_S16_S1x16x1x1_1 : S16.BroadcastsInDim S1x16x1x1 (![1] : Fin 1 → Fin S1x16x1x1.rank)
  bcast_S4x1x2048x768_S4x16x2048x768_0_1_2_3 : S4x1x2048x768.BroadcastsInDim S4x16x2048x768 (![0, 1, 2, 3] : Fin 4 → Fin S4x16x2048x768.rank)
  bcast_S1x16x1x1_S4x16x2048x768_0_1_2_3 : S1x16x1x1.BroadcastsInDim S4x16x2048x768 (![0, 1, 2, 3] : Fin 4 → Fin S4x16x2048x768.rank)

variable [Facts₀]

class Facts : Prop extends Facts₀ where

variable [Facts]
-- ==== Proof.LibSpellings.lean ====
/-
  Four places where a host program and a kernel spell one value differently, or where a recast only renames an
  index — each stated once, over the library alone, at the extended reals where floats are involved.

    * `ofBits_one_f32`: the 32-bit word 0x3F800000 is the number 1.
    * `hostQuotient_eq_logistic`: the host's expansion of the sigmoid, 1 / (1 + exp (-y)) with its ones written as
      that word, is the one-operation sigmoid: both are `Ideal.div 1 (1 + exp (-y))`, on every extended real.
    * `sitofp_setWidth_bit`: a one-bit word widened to 32 bits and read as a signed integer is the bit read as an
      unsigned integer (the widening puts zeros in front, so the sign bit is 0): the kernel's convert of a widened
      comparison bit is the host's convert of the bit.
    * `shapeCast_ab_11ab_apply`: an `[a, b]` matrix recast to `[1, 1, a, b]` reads, at (u, v, i, j), the matrix at
      (i, j): two unit axes in front add nothing to the row-major position.
  None needs a finiteness hypothesis.
-/
import Idealize.ShloMosaic.PureOps.Ideal
import Idealize.ShloMosaic.Lib.ValueIdx
import Idealize.ShloMosaic.Lib.ValueLayout
import Idealize.ShloMosaic.Lib.KernelVsHost

noncomputable section

namespace Cert.LibSpellings

open Idealize.ShloMosaic Idealize.ShloMosaic.ValueIdx

/-- The word 0x3F800000 is the number one. -/
theorem ofBits_one_f32 : Ideal.ofBits .f32 0x3F800000#32 = 1 := by
  simp [Ideal.ofBits, Ideal.ieee, -EReal.coe_mul]; norm_num

/-- The quotient 1 / (1 + exp (-y)), its ones written as words, is sigma(y): both are `Ideal.div 1 (1 + exp (-y))`. -/
theorem hostQuotient_eq_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
    = FloatOps.logistic y := by
  rw [Ideal.ofBits_def, ofBits_one_f32]; rfl

/-- A bit widened to 32 bits and read signed is the bit read unsigned: zero or one either way. -/
theorem sitofp_setWidth_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_setWidth_bit]; norm_cast

/-- An `[a, b]` matrix recast to `[1, 1, a, b]` reads, at `(u, v, i, j)`, the matrix at `(i, j)`: the two unit axes
    contribute nothing to the row-major position. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    rw [Shape.rowMajor_val_four, Shape.rowMajor_val_two]
    show i.val * b + j.val = ((u.val * 1 + v.val) * a + i.val) * b + j.val
    have hu : u.val = 0 := Nat.lt_one_iff.mp u.isLt
    have hv : v.val = 0 := Nat.lt_one_iff.mp v.isLt
    simp only [hu, hv, Nat.zero_mul, Nat.zero_add])

end Cert.LibSpellings

end
-- ==== Proof.SpikeCode.lean ====
/-
  The spike code as plain mathematics, with no program in sight.

  An input value x is squashed to sigma(x) = 1 / (1 + e^(-x)) in [0, 1] (read on the extended reals:
  sigma(-inf) = 0, sigma(+inf) = 1), scaled by 15 and truncated toward zero to a 32-bit word: its SPIKE TIME.
  The code of x is the one-hot vector over the sixteen time steps 0 .. 15 whose entry t is 1 when the spike
  time is the word t and 0 otherwise.  The result array puts the time axis second:
      code x (b, t, s, d) = [ spikeTime (x (b, s, d)) = t ].

  Two differently spelt programs meet in this one function through the small facts of Proof/LibSpellings.lean (the
  word for 1, the expanded sigmoid, a widened bit, a recast with two unit axes).  None of them needs the input to be
  finite: no sum is rearranged and nothing is cancelled.
-/
import proofs.«123295_j33071248179953_2_alg».proof.Proof.LibSpellings

noncomputable section

namespace Cert.SpikeCode

open Idealize.ShloMosaic Idealize.ShloMosaic.ValueIdx

/-- The spike time of one input value: sigma(x) * 15, truncated toward zero, as a 32-bit word. -/
def spikeTime (x : Ideal .f32) : BitVec 32 :=
  FloatOps.fptosi 32 (FloatOps.mulf (FloatOps.logistic x) (FloatOps.ofBits .f32 0x41700000#32))

/-- One entry of a one-hot code: 1 when the spike time `s` is the step `t`, else 0. -/
def hot (s t : BitVec 32) : Ideal .f32 := FloatOps.uitofp .f32 (IntOp.cmpi .eq s t)

/-- The whole result: entry (b, t, s, d) says whether input (b, s, d) spikes at step t. -/
def code (x : (⟨3, ![4, 2048, 768]⟩ : Shape).Idx → Ideal .f32) :
    (⟨4, ![4, 16, 2048, 768]⟩ : Shape).Idx → Ideal .f32 :=
  fun i => hot (spikeTime (x (ix3 (i 0) (i 2) (i 3)))) (BitVec.ofNat 32 (i 1).val)

/-- The same function on one block of 256 rows of one batch member: entry (0, t, r, d) from input (0, r, d). -/
def blockCode (x : (⟨3, ![1, 256, 768]⟩ : Shape).Idx → Ideal .f32) :
    (⟨4, ![1, 16, 256, 768]⟩ : Shape).Idx → Ideal .f32 :=
  fun y => hot (spikeTime (x (ix3 (0 : Fin 1) (y 2) (y 3)))) (BitVec.ofNat 32 (y 1).val)

/-- A block's code at (u, t, r, d) is the array's code at an index `i` with the same time step whose input is the
    block's input (0, r, d): both sides are the same test of the same spike time. -/
theorem blockCode_eq_code (X : (⟨3, ![4, 2048, 768]⟩ : Shape).Idx → Ideal .f32)
    (x0 : (⟨3, ![1, 256, 768]⟩ : Shape).Idx → Ideal .f32)
    (u : Fin 1) (k : Fin 16) (p : Fin 256) (q : Fin 768) (i : (⟨4, ![4, 16, 2048, 768]⟩ : Shape).Idx)
    (hstep : (i 1).val = k.val) (hsrc : x0 (ix3 (0 : Fin 1) p q) = X (ix3 (i 0) (i 2) (i 3))) :
    blockCode x0 (ix4 u k p q) = code X i := by
  show hot (spikeTime (x0 (ix3 (0 : Fin 1) p q))) (BitVec.ofNat 32 k.val)
    = hot (spikeTime (X (ix3 (i 0) (i 2) (i 3)))) (BitVec.ofNat 32 (i 1).val)
  rw [hsrc, hstep]

end Cert.SpikeCode

end
-- ==== Proof.ReferenceCode.lean ====
/-
  The reference program computes the spike code.

  Read one operation at a time, its result at index (b, t, s, d) is
      unsigned-to-float [ trunc ( (1 / (1 + exp (-x (b, s, d)))) * 15 ) = iota t ],
  the input reached through two broadcasts that forget the time coordinate, the step through two broadcasts that
  forget every other coordinate.  The quotient is sigma (its ones are the word for 1), the iota's entry t is the
  word t, and what remains is the definition of `code`.
-/
import proofs.«123295_j33071248179953_2_alg».proof.Proof.Gen.ReferenceIdeal.Read
import proofs.«123295_j33071248179953_2_alg».proof.Proof.SpikeCode

noncomputable section

namespace Cert.ReferenceCode

open Cert.ReferenceIdeal Cert.ReferenceIdeal.Read Cert.SpikeCode Cert.LibSpellings
open Idealize.ShloMosaic Idealize.ShloMosaic.ValueIdx

/-- The two broadcasts of the spike times forget the time coordinate: entry (b, t, s, d) reads input (b, s, d). -/
theorem source_index (i : S4x16x2048x768.Idx) : idx_main_v10 (idx_main_v12 i) = ix3 (i 0) (i 2) (i 3) :=
  funext fun a => Fin.ext (by match a with | ⟨0, _⟩ => rfl | ⟨1, _⟩ => rfl | ⟨2, _⟩ => rfl)

/-- The reference's result is the spike code of its argument. -/
theorem reference_is_code (x : (⟨S4x2048x768, .f32⟩ : BufTy).Contents (Elt Ideal)) :
    val_main_v15 (F := Ideal) x = code x := by
  funext i
  rw [val_main_v15_apply, val_main_v14_apply, val_main_v12_apply, val_main_v10_apply, val_main_v8_apply,
    val_main_v7_apply, val_main_v5_apply, val_main_v4_apply, val_main_cst_0_apply, val_main_v3_apply,
    val_main_v2_apply, val_main_cst_apply, val_main_v1_apply, val_main_v0_apply, val_main_v6_apply,
    val_main_cst_1_apply, val_main_v13_apply, val_main_v11_apply, val_main_v9_apply, source_index,
    hostQuotient_eq_logistic]
  rfl

end Cert.ReferenceCode

end
-- ==== Proof.BlockBody.lean ====
/-
  What the kernel's body leaves in one output block is the spike code of its input block.

  The body reads a block x0 of 256 rows of one batch member, computes the block's spike times once,
      times (r, d) = trunc (sigma (x0 (0, r, d)) * 15),
  and then writes sixteen slabs, one per time step t: slab t holds the 0/1 test [times = t], the test's bit widened
  to a 32-bit word and read as a signed integer.  Slab t sits at rows (0, t, ., .) of the block, so an index of the
  slab with inner coordinates (u, v, r, d) is the block's index (0, t, r, d).  Each slab is therefore the block's
  spike code read through the slab's rectangle; the sixteen slabs tile the block, so the block IS the spike code.
-/
import proofs.«123295_j33071248179953_2_alg».proof.Proof.Gen.KernelIdeal.Frame
import proofs.«123295_j33071248179953_2_alg».proof.Proof.SpikeCode

set_option maxRecDepth 16384

noncomputable section

namespace Cert.BlockBody

open Cert.KernelIdeal Cert.KernelIdeal.Gen Cert.SpikeCode Cert.LibSpellings
open Idealize.ShloMosaic Idealize.ShloMosaic.ValueIdx

/-- The offsets of a whole-block load are all zero. -/
theorem offsets_zero : (![0, 0, 0] : Fin 3 → Nat) = fun _ => 0 := funext fun a => by fin_cases a <;> rfl

/-- The block's spike times: entry (r, d) is the spike time of the block's input (0, r, d). -/
theorem times_apply (x0 : Vec Ideal S1x256x768 .f32) (p : Fin 256) (q : Fin 768) :
    k0_pay4 (F := Ideal) x0 (ix2 p q) = spikeTime (x0 (ix3 (0 : Fin 1) p q)) := by
  unfold k0_pay4
  show FloatOps.fptosi (F := Ideal) 32 (FloatOps.mulf (FloatOps.logistic
      (shapeCast (α := Ideal .f32) S256x768 x0 shapeCasts_S1x256x768_S256x768 (ix2 p q)))
      (Scalar.ofBits .f32 0x41700000#32)) = _
  rw [shapeCast_1ab_ab_apply]
  rfl

/-- Slab `k`'s rectangle places its index (u, v, r, d) at the block's index (0, k, r, d). -/
theorem slab_index (k : ℕ) (hk : k < 16)
    (inb : ∀ a, (![0, k, 0, 0] : Fin 4 → ℕ) a + S1x1x256x768.size a ≤ S1x16x256x768.size a)
    (u v : Fin 1) (p : Fin 256) (q : Fin 768) :
    (Rect.unit (s := S1x16x256x768) ![0, k, 0, 0] S1x1x256x768.size inb).emb (ix4 u v p q)
      = ix4 (0 : Fin 1) (⟨k, hk⟩ : Fin 16) p q := by
  funext a; apply Fin.ext
  match a with
  | ⟨0, _⟩ => show 0 + 1 * u.val = 0; have := u.isLt; omega
  | ⟨1, _⟩ => show k + 1 * v.val = k; have := v.isLt; omega
  | ⟨2, _⟩ => show 0 + 1 * p.val = p.val; omega
  | ⟨3, _⟩ => show 0 + 1 * q.val = q.val; omega

/-- Slab `k` — the test of the block's spike times against step `k`, widened, read signed and recast with two unit
    axes in front — is the block's spike code read through the slab's rectangle. -/
theorem slab_is_blockCode (x0 : Vec Ideal S1x256x768 .f32) (k : ℕ) (hk : k < 16)
    (inb : ∀ a, (![0, k, 0, 0] : Fin 4 → ℕ) a + S1x1x256x768.size a ≤ S1x16x256x768.size a)
    (x : S1x1x256x768.Idx) :
    shapeCast S1x1x256x768
        (sitofp (F := Ideal) .f32
          (extui 32 (cmpi .eq (k0_pay4 (F := Ideal) x0) (broadcast S256x768 (BitVec.ofNat 32 k))) natLt_1_32))
        shapeCasts_S256x768_S1x1x256x768 x
      = blockCode x0 ((Rect.unit (s := S1x16x256x768) ![0, k, 0, 0] S1x1x256x768.size inb).emb x) := by
  obtain ⟨u, v, p, q, rfl⟩ : ∃ (u v : Fin 1) (p : Fin 256) (q : Fin 768), x = ix4 u v p q :=
    ⟨x 0, x 1, x 2, x 3, eq_ix4 x⟩
  rw [slab_index k hk inb u v p q, shapeCast_ab_11ab_apply]
  show FloatOps.sitofp (F := Ideal) .f32
      ((IntOp.cmpi .eq (k0_pay4 (F := Ideal) x0 (ix2 p q)) (BitVec.ofNat 32 k)).setWidth 32)
    = hot (spikeTime (x0 (ix3 (0 : Fin 1) p q))) (BitVec.ofNat 32 k)
  rw [times_apply, sitofp_setWidth_bit]
  rfl

/-- THE BODY'S RESULT: the sixteen slabs, each the spike code through its rectangle, tile the block. -/
theorem body_is_blockCode (x0 : Vec Ideal S1x256x768 .f32) : out0_1 (F := Ideal) x0 = blockCode x0 := by
  funext y
  unfold out0_1
  simp only [View.ld_unit_zero (S := S1x256x768) offsets_zero]
  refine View.canon_apply_of_pieces (Val := Elt Ideal) (S := S1x16x256x768) (e := .f32) (blockCode x0) _ ?_ y (cover0_1 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl
  · exact fun x => slab_is_blockCode x0 15 (by decide) inb_S1x16x256x768_S1x1x256x768_0_15_0_0 x
  · exact fun x => slab_is_blockCode x0 14 (by decide) inb_S1x16x256x768_S1x1x256x768_0_14_0_0 x
  · exact fun x => slab_is_blockCode x0 13 (by decide) inb_S1x16x256x768_S1x1x256x768_0_13_0_0 x
  · exact fun x => slab_is_blockCode x0 12 (by decide) inb_S1x16x256x768_S1x1x256x768_0_12_0_0 x
  · exact fun x => slab_is_blockCode x0 11 (by decide) inb_S1x16x256x768_S1x1x256x768_0_11_0_0 x
  · exact fun x => slab_is_blockCode x0 10 (by decide) inb_S1x16x256x768_S1x1x256x768_0_10_0_0 x
  · exact fun x => slab_is_blockCode x0 9 (by decide) inb_S1x16x256x768_S1x1x256x768_0_9_0_0 x
  · exact fun x => slab_is_blockCode x0 8 (by decide) inb_S1x16x256x768_S1x1x256x768_0_8_0_0 x
  · exact fun x => slab_is_blockCode x0 7 (by decide) inb_S1x16x256x768_S1x1x256x768_0_7_0_0 x
  · exact fun x => slab_is_blockCode x0 6 (by decide) inb_S1x16x256x768_S1x1x256x768_0_6_0_0 x
  · exact fun x => slab_is_blockCode x0 5 (by decide) inb_S1x16x256x768_S1x1x256x768_0_5_0_0 x
  · exact fun x => slab_is_blockCode x0 4 (by decide) inb_S1x16x256x768_S1x1x256x768_0_4_0_0 x
  · exact fun x => slab_is_blockCode x0 3 (by decide) inb_S1x16x256x768_S1x1x256x768_0_3_0_0 x
  · exact fun x => slab_is_blockCode x0 2 (by decide) inb_S1x16x256x768_S1x1x256x768_0_2_0_0 x
  · exact fun x => slab_is_blockCode x0 1 (by decide) inb_S1x16x256x768_S1x1x256x768_0_1_0_0 x
  · exact fun x => slab_is_blockCode x0 0 (by decide) inb_S1x16x256x768_S1x1x256x768_0_0_0_0 x

end Cert.BlockBody

end
-- ==== Proof.ArrayCode.lean ====
/-
  The kernel's result array is the spike code of its argument.

  The grid has 4 x 8 points (b, s): point (b, s) reads rows 256 s .. 256 s + 255 of batch member b — the input block
  with block index (b, s, 0) — and writes back the output block with block index (b, 0, s, 0): all sixteen time
  steps of those rows.  An index (0, t, r, d) inside the output block is the array's index (b, t, 256 s + r, d), and
  the input it depends on, (0, r, d) inside the input block, is the array's (b, 256 s + r, d): the same batch member,
  row and feature, the time coordinate forgotten.  So what a point writes back is its block of the array's spike
  code.  Every array index (b, t, s', d) lies in the block of the point (b, s' / 256), so the blocks cover the array
  and the array ends holding the spike code everywhere.
-/
import proofs.«123295_j33071248179953_2_alg».proof.Proof.Gen.KernelIdeal.Value
import proofs.«123295_j33071248179953_2_alg».proof.Proof.BlockBody

set_option maxRecDepth 16384

noncomputable section

namespace Cert.ArrayCode

open Cert.KernelIdeal Cert.KernelIdeal.Gen Cert.SpikeCode Cert.BlockBody
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The two index maps over the grid: the input's block index is (b, s, 0) where the output's is (b, 0, s, 0). -/
theorem index_maps : ∀ t : Fin cfg0.N,
    win0_0.index t (0 : Fin 3) = win0_1.index t (0 : Fin 4)
    ∧ win0_0.index t (1 : Fin 3) = win0_1.index t (2 : Fin 4)
    ∧ win0_0.index t (2 : Fin 3) = 0
    ∧ win0_1.index t (1 : Fin 4) = 0
    ∧ win0_1.index t (3 : Fin 4) = 0 :=
  (by decide +kernel : ∀ t : Fin grid0.N, _)

/-- Every output block index (b, 0, s, 0) with b < 4 and s < 8 is some grid point's. -/
theorem every_block : ∀ (b : Fin 4) (s : Fin 8), ∃ t : Fin cfg0.N, win0_1.index t = ![b.val, 0, s.val, 0] :=
  (by decide +kernel : ∀ (b : Fin 4) (s : Fin 8), ∃ t : Fin grid0.N, win0_1.index t = ![b.val, 0, s.val, 0])

/-- WHAT POINT `t` WRITES BACK is block `t` of the spike code of the argument array. -/
theorem flushed_is_code (c : Dev nD) (t : Fin cfg0.N) :
    (dats m 0 c).flushed 1 t = ((cfg0.win 1).blk t).view.read (Elt Ideal) (code (V m c main_arg0)) := by
  rw [Value.flushed1, body_is_blockCode (iblk m c 0 t)]
  obtain ⟨e0, e1, e2, e3, e4⟩ := index_maps t
  funext j
  obtain ⟨u, k, p, q, rfl⟩ : ∃ (u : Fin 1) (k : Fin 16) (p : Fin 256) (q : Fin 768), j = ix4 u k p q :=
    ⟨j 0, j 1, j 2, j 3, eq_ix4 j⟩
  show blockCode (iblk m c 0 t) (ix4 u k p q)
    = code (V m c main_arg0) (((cfg0.win 1).blk t).view.emb (ix4 u k p q))
  refine blockCode_eq_code (V m c main_arg0) (iblk m c 0 t) u k p q _ ?_ ?_
  · show win0_1.index t (1 : Fin 4) * 16 + 1 * k.val = k.val
    omega
  · show V m c main_arg0 (((cfg0.win 0).blk t).view.emb (ix3 (0 : Fin 1) p q)) = _
    refine congrArg (V m c main_arg0) (funext fun a => Fin.ext ?_)
    match a with
    | ⟨0, _⟩ =>
      show win0_0.index t (0 : Fin 3) * 1 + 1 * 0 = win0_1.index t (0 : Fin 4) * 1 + 1 * u.val
      have := u.isLt; omega
    | ⟨1, _⟩ =>
      show win0_0.index t (1 : Fin 3) * 256 + 1 * p.val = win0_1.index t (2 : Fin 4) * 256 + 1 * p.val
      omega
    | ⟨2, _⟩ =>
      show win0_0.index t (2 : Fin 3) * 768 + 1 * q.val = win0_1.index t (3 : Fin 4) * 768 + 1 * q.val
      omega

/-- An index of the array is in point `t`'s block iff each coordinate is in the block's range on its axis. -/
theorem mem_block (t : Fin cfg0.N) (i : S4x16x2048x768.Idx) :
    i ∈ ((cfg0.win 1).blk t).view.set ↔ ∀ a : Fin 4, win0_1.index t a * S1x16x256x768.size a ≤ (i a).val
      ∧ (i a).val < win0_1.index t a * S1x16x256x768.size a + S1x16x256x768.size a := by
  show i ∈ ((View.whole main_v0).slice (win0_1.rect t)).set ↔ _
  rw [View.set_slice_whole, Rect.mem_set_unit]
  exact Iff.rfl

/-- The blocks cover the array: index (b, t, s', d) lies in the block of the point with block index (b, 0, s' / 256, 0). -/
theorem blocks_cover (i : S4x16x2048x768.Idx) :
    ∃ t : Fin cfg0.N, (cfg0.win 1).flush t = true ∧ i ∈ ((cfg0.win 1).blk t).view.set := by
  have h0 : (i 0).val < 4 := (i 0).isLt
  have h1 : (i 1).val < 16 := (i 1).isLt
  have h2 : (i 2).val < 2048 := (i 2).isLt
  have h3 : (i 3).val < 768 := (i 3).isLt
  obtain ⟨t, ht⟩ := every_block ⟨(i 0).val, h0⟩ ⟨(i 2).val / 256, by omega⟩
  have q0 : win0_1.index t (0 : Fin 4) = (i 0).val := congrFun ht 0
  have q1 : win0_1.index t (1 : Fin 4) = 0 := congrFun ht 1
  have q2 : win0_1.index t (2 : Fin 4) = (i 2).val / 256 := congrFun ht 2
  have q3 : win0_1.index t (3 : Fin 4) = 0 := congrFun ht 3
  refine ⟨t, flush0_1 t, ?_⟩
  rw [mem_block]
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 16 ≤ (i 1).val ∧ (i 1).val < win0_1.index t (1 : Fin 4) * 16 + 16
    omega
  | ⟨2, _⟩ =>
    show win0_1.index t (2 : Fin 4) * 256 ≤ (i 2).val ∧ (i 2).val < win0_1.index t (2 : Fin 4) * 256 + 256
    omega
  | ⟨3, _⟩ =>
    show win0_1.index t (3 : Fin 4) * 768 ≤ (i 3).val ∧ (i 3).val < win0_1.index t (3 : Fin 4) * 768 + 768
    omega

/-- THE ARRAY after the run is the spike code of the argument. -/
theorem final_is_code (c : Dev nD) :
    (dats m 0 c).arrAt 1 cfg0.N = code (m ((c : Thread nD τ).loc main_arg0)) :=
  (dats m 0 c).arrAt_eq_of_cover 1 (code (V m c main_arg0)) (fun t _ => flushed_is_code m c t) blocks_cover

/-- The kernel's run: every weakly fair execution ends with the result array at the spike code of the argument
    array, the argument unchanged. -/
theorem run_is_code : θ_run defs (onTc (τ := τ) (main (F := Ideal))) ⟨m, fun _ => 0, ρ⟩ fun r => ∀ c : Dev nD,
      r.2.mem ((c : Thread nD τ).loc main_v0) = code (m ((c : Thread nD τ).loc main_arg0))
      ∧ r.2.mem ((c : Thread nD τ).loc main_arg0) = m ((c : Thread nD τ).loc main_arg0) :=
  (θ_run defs _ _).mono (fun r h c => ⟨(h c).1.trans (final_is_code m c), (h c).2⟩) (Value.run_blocks m ρ)

end Cert.ArrayCode

end
-- ==== Proof.lean ====
/-
  The one-hot spike code: a Pallas kernel against its jnp reference, equal on the extended reals.

  Both programs send an input x of shape [4, 2048, 768] to the array of shape [4, 16, 2048, 768] whose entry
  (b, t, s, d) is 1 when trunc (sigma (x (b, s, d)) * 15) is the time step t, and 0 otherwise (Proof/SpikeCode.lean).
    * The reference spells sigma as the quotient 1 / (1 + exp (-x)), compares the truncated product with an iota
      broadcast along the time axis, and converts the comparison's bit to a float (Proof/ReferenceCode.lean).
    * The kernel visits 4 x 8 blocks of 256 rows.  Its body applies the sigmoid as one operation, computes the block's
      spike times once, and writes one slab per time step, each the comparison's bit widened to a 32-bit word and
      converted as a signed integer (Proof/BlockBody.lean); the blocks tile the array (Proof/ArrayCode.lean).
  The two spellings of sigma are one function of an extended real, and a widened bit read signed is the bit read
  unsigned, so the two results agree at every index for EVERY input, finite or not: the value claim never opens the
  precondition.  The three frame claims are the programs' runs with the results forgotten.  The idealized kernel is
  the kernel's own text read on the extended reals — no operation was rewritten — so there is nothing to preserve.
-/
import proofs.«123295_j33071248179953_2_alg».proof.Defs
import proofs.«123295_j33071248179953_2_alg».proof.Proof.Gen.Kernel
import proofs.«123295_j33071248179953_2_alg».proof.Proof.Gen.Kernel.Skeleton
import proofs.«123295_j33071248179953_2_alg».proof.Proof.Gen.Kernel.Launch
import proofs.«123295_j33071248179953_2_alg».proof.Proof.Gen.Kernel.Points
import proofs.«123295_j33071248179953_2_alg».proof.Proof.Gen.Kernel.Frame
import proofs.«123295_j33071248179953_2_alg».proof.Proof.Gen.KernelIdeal
import proofs.«123295_j33071248179953_2_alg».proof.Proof.Gen.KernelIdeal.Skeleton
import proofs.«123295_j33071248179953_2_alg».proof.Proof.Gen.KernelIdeal.Launch
import proofs.«123295_j33071248179953_2_alg».proof.Proof.Gen.KernelIdeal.Points
import proofs.«123295_j33071248179953_2_alg».proof.Proof.Gen.KernelIdeal.Frame
import proofs.«123295_j33071248179953_2_alg».proof.Proof.Gen.ReferenceIdeal
import proofs.«123295_j33071248179953_2_alg».proof.Proof.Gen.Pre_finite_inputs
import proofs.«123295_j33071248179953_2_alg».proof.Proof.Gen.KernelIdeal.Value
import proofs.«123295_j33071248179953_2_alg».proof.Proof.Gen.ReferenceIdeal.Run
import proofs.«123295_j33071248179953_2_alg».proof.Proof.Gen.ReferenceIdeal.Read
import proofs.«123295_j33071248179953_2_alg».proof.Proof.LibSpellings
import proofs.«123295_j33071248179953_2_alg».proof.Proof.SpikeCode
import proofs.«123295_j33071248179953_2_alg».proof.Proof.ReferenceCode
import proofs.«123295_j33071248179953_2_alg».proof.Proof.BlockBody
import proofs.«123295_j33071248179953_2_alg».proof.Proof.ArrayCode
import Idealize.ShloMosaic.Adequacy
import Idealize.ShloMosaic.Init

noncomputable section

namespace Cert.Proof

open Idealize.ShloMosaic Idealize.ShloMosaic.TcCoe Idealize.SL.Sem

/-- The kernel as printed runs to the end, nothing faulting, its argument unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals: nothing to preserve. -/
theorem preserves : Cert.preserves_Kernel_KernelIdeal := trivial

/-- From memories that agree on the argument, the kernel's result array and the reference's both end at the spike
    code of that argument: the kernel's by its blocks (`ArrayCode.run_is_code`), the reference's by reading its
    operations one at a time (`ReferenceCode.reference_is_code`). -/
theorem algebraic : Cert.algebraic_KernelIdeal_ReferenceIdeal := by
  intro m ρ m' ρ' _ hagree
  refine ⟨fun c => Cert.SpikeCode.code
      (m ((c.tc : Thread Cert.KernelIdeal.nD Cert.KernelIdeal.τ).loc Cert.KernelIdeal.main_arg0)),
    Cert.ArrayCode.run_is_code m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, Cert.ReferenceCode.reference_is_code, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
